-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8192x2048 : Shape := ⟨2, ![8192, 2048]⟩
abbrev S8192 : Shape := ⟨1, ![8192]⟩
abbrev S4096x8 : Shape := ⟨2, ![4096, 8]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S4096x2048 .f32) (main_arg1 : FVec F S8192x2048 .f32) (main_arg2 : FVec F S8192 .f32) (main_arg3 : IVec S4096x8 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S4096x2048 : Shape := ⟨2, ![4096, 2048]⟩
abbrev S8192x2048 : Shape := ⟨2, ![8192, 2048]⟩
abbrev S8192 : Shape := ⟨1, ![8192]⟩
abbrev S4096x8 : Shape := ⟨2, ![4096, 8]⟩
abbrev S_ : Shape := ⟨0, ![]⟩
abbrev S1x8192 : Shape := ⟨2, ![1, 8192]⟩
abbrev S8 : Shape := ⟨1, ![8]⟩
abbrev S8x1 : Shape := ⟨2, ![8, 1]⟩
abbrev S8x8192 : Shape := ⟨2, ![8, 8192]⟩
abbrev S4096x8192 : Shape := ⟨2, ![4096, 8192]⟩
abbrev S1024x2048 : Shape := ⟨2, ![1024, 2048]⟩
abbrev S512x2048 : Shape := ⟨2, ![512, 2048]⟩
abbrev S1x512 : Shape := ⟨2, ![1, 512]⟩
abbrev S1024x8 : Shape := ⟨2, ![1024, 8]⟩
abbrev S8x512 : Shape := ⟨2, ![8, 512]⟩
abbrev S1024x512 : Shape := ⟨2, ![1024, 512]⟩

abbrev nBuf : Space → Nat
  | .hbm => 48
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S8192, .f32⟩
  | .hbm, ⟨3, _⟩ => ⟨S4096x8, .i32⟩
  | .hbm, ⟨4, _⟩ => ⟨S_, .f32⟩
  | .hbm, ⟨5, _⟩ => ⟨S8192x2048, .f32⟩
  | .hbm, ⟨6, _⟩ => ⟨S8192x2048, .i1⟩
  | .hbm, ⟨7, _⟩ => ⟨S_, .f32⟩
  | .hbm, ⟨8, _⟩ => ⟨S8192x2048, .f32⟩
  | .hbm, ⟨9, _⟩ => ⟨S8192x2048, .i1⟩
  | .hbm, ⟨10, _⟩ => ⟨S_, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .bf16⟩
  | .hbm, ⟨19, _⟩ => ⟨S4096x2048, .bf16⟩
  | .hbm, ⟨20, _⟩ => ⟨S1x8192, .f32⟩
  | .hbm, ⟨21, _⟩ => ⟨S8192, .i32⟩
  | .hbm, ⟨22, _⟩ => ⟨S_, .i32⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S8192, .i32⟩
  | .hbm, ⟨31, _⟩ => ⟨S8192, .i32⟩
  | .hbm, ⟨32, _⟩ => ⟨S_, .i32⟩
  | .hbm, ⟨33, _⟩ => ⟨S8192, .i32⟩
  | .hbm, ⟨34, _⟩ => ⟨S8192, .i1⟩
  | .hbm, ⟨35, _⟩ => ⟨S8192, .i1⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S8192, .i32⟩
  | .hbm, ⟨40, _⟩ => ⟨S8, .i32⟩
  | .hbm, ⟨41, _⟩ => ⟨S8x1, .i32⟩
  | .hbm, ⟨42, _⟩ => ⟨S1x8192, .i32⟩
  | .hbm, ⟨43, _⟩ => ⟨S8x8192, .i32⟩
  | .hbm, ⟨44, _⟩ => ⟨S8x8192, .i32⟩
  | .hbm, ⟨45, _⟩ => ⟨S8x8192, .i1⟩
  | .hbm, ⟨46, _⟩ => ⟨S8x8192, .f32⟩
  | .hbm, ⟨47, _⟩ => ⟨S4096x8192, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1x512, .f32⟩
  | .local _ .vmem, ⟨5, _⟩ => ⟨S1x512, .f32⟩
  | .local _ .vmem, ⟨6, _⟩ => ⟨S1024x8, .i32⟩
  | .local _ .vmem, ⟨7, _⟩ => ⟨S1024x8, .i32⟩
  | .local _ .vmem, ⟨8, _⟩ => ⟨S8x512, .f32⟩
  | .local _ .vmem, ⟨9, _⟩ => ⟨S8x512, .f32⟩
  | .local _ .vmem, ⟨10, _⟩ => ⟨S1024x512, .f32⟩
  | .local _ .vmem, ⟨11, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_3 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_call2_v5 : Ref sig .tc := ⟨.hbm, 28, rfl⟩
abbrev main_call2_v6 : Ref sig .tc := ⟨.hbm, 29, rfl⟩
abbrev main_call2_v7 : Ref sig .tc := ⟨.hbm, 30, rfl⟩
abbrev main_call2_v8 : Ref sig .tc := ⟨.hbm, 31, rfl⟩
abbrev main_call2_c : Ref sig .tc := ⟨.hbm, 32, rfl⟩
abbrev main_call2_v9 : Ref sig .tc := ⟨.hbm, 33, rfl⟩
abbrev main_call2_v10 : Ref sig .tc := ⟨.hbm, 34, rfl⟩
abbrev main_call2_v11 : Ref sig .tc := ⟨.hbm, 35, rfl⟩
abbrev main_call2_c_0 : Ref sig .tc := ⟨.hbm, 36, rfl⟩
abbrev main_call2_v12 : Ref sig .tc := ⟨.hbm, 37, rfl⟩
abbrev main_call2_v13 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S8192x2048 : S_.BroadcastsInDim S8192x2048 (![] : Fin 0 → Fin S8192x2048.rank)
  bitsLt_bf16_f32 : FTy.bits .bf16 < FTy.bits .f32
  shapeCasts_S8192_S1x8192 : S8192.ShapeCasts S1x8192
  bcast_S_S8192 : S_.BroadcastsInDim S8192 (![] : Fin 0 → Fin S8192.rank)
  shapeCasts_S8_S8x1 : S8.ShapeCasts S8x1
  bcast_S8x1_S8x8192_0_1 : S8x1.BroadcastsInDim S8x8192 (![0, 1] : Fin 2 → Fin S8x8192.rank)
  bcast_S1x8192_S8x8192_0_1 : S1x8192.BroadcastsInDim S8x8192 (![0, 1] : Fin 2 → Fin S8x8192.rank)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x8_S1024x8_0_0 : ∀ a, (![0, 0] : Fin 2 → Nat) a + S1024x8.size a ≤ S1024x8.size a
  h_S1024x8 : 0 < S1024x8.numel
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S1024x512_S1024x512_0_0 : ∀ a, (![0, 0] : Fin 2 → Nat) a + S1024x512.size a ≤ S1024x512.size a
  h_S1024x512 : 0 < S1024x512.numel
  dot_S1024x2048_S512x2048_S1024x512_1_1_0_0_n_n_wf : DotDims.WF S1024x2048 S512x2048 S1024x512 [1] [1] [0] [0] [] []
  dot_S1024x8_S8x512_S1024x512_1_0_0_1_n_n_wf : DotDims.WF S1024x8 S8x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .bf16 = 32 ∨ (Rect.block (s := S4096x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x8.size a ≤ S4096x8.size a
  hwx0_3 : ∀ i : grid0.Coords, EltTy.bits .i32 = 32 ∨ (Rect.block (s := S4096x8) S1024x8.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S8x8192.size a
  hwx0_4 : ∀ i : grid0.Coords, EltTy.bits .f32 = 32 ∨ (Rect.block (s := S8x8192) S8x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S4096x8192.size a
  hwx0_5 : ∀ i : grid0.Coords, EltTy.bits .f32 = 32 ∨ (Rect.block (s := S4096x8192) S1024x512.size (cc0_transform_5 i) (hinb0_5 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf
def dot_S1024x8_S8x512_S1024x512_1_0_0_1_n_n : DotDims S1024x8 S8x512 S1024x512 where
  lhsContracting := [1]
  rhsContracting := [0]
  lhsNonContracting := [0]
  rhsNonContracting := [1]
  lhsBatch := []
  rhsBatch := []
  wf := dot_S1024x8_S8x512_S1024x512_1_0_0_1_n_n_wf

abbrev win0_0 : Pipeline.Window sig grid0 :=
  Pipeline.Window.ofSpec (Memref.whole main_v7) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S8x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S8192x2048 : Shape := ⟨2, ![8192, 2048]⟩
abbrev S8192 : Shape := ⟨1, ![8192]⟩
abbrev S4096x8 : Shape := ⟨2, ![4096, 8]⟩
abbrev S_ : Shape := ⟨0, ![]⟩
abbrev S4096x8192 : Shape := ⟨2, ![4096, 8192]⟩
abbrev S1x8192 : Shape := ⟨2, ![1, 8192]⟩
abbrev S4096x8x1024 : Shape := ⟨3, ![4096, 8, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S8192, .f32⟩
  | .hbm, ⟨3, _⟩ => ⟨S4096x8, .i32⟩
  | .hbm, ⟨4, _⟩ => ⟨S_, .f32⟩
  | .hbm, ⟨5, _⟩ => ⟨S8192x2048, .f32⟩
  | .hbm, ⟨6, _⟩ => ⟨S8192x2048, .i1⟩
  | .hbm, ⟨7, _⟩ => ⟨S_, .f32⟩
  | .hbm, ⟨8, _⟩ => ⟨S8192x2048, .f32⟩
  | .hbm, ⟨9, _⟩ => ⟨S8192x2048, .i1⟩
  | .hbm, ⟨10, _⟩ => ⟨S_, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S4096x8192, .f32⟩
  | .hbm, ⟨20, _⟩ => ⟨S1x8192, .f32⟩
  | .hbm, ⟨21, _⟩ => ⟨S4096x8192, .f32⟩
  | .hbm, ⟨22, _⟩ => ⟨S4096x8192, .f32⟩
  | .hbm, ⟨23, _⟩ => ⟨S4096x8, .f32⟩
  | .hbm, ⟨24, _⟩ => ⟨S4096x8x1024, .f32⟩
  | .hbm, ⟨25, _⟩ => ⟨S4096x8192, .f32⟩
  | .hbm, ⟨26, _⟩ => ⟨S4096x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_3 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]

class Facts₀ : Prop where
  bcast_S_S8192x2048 : S_.BroadcastsInDim S8192x2048 (![] : Fin 0 → Fin S8192x2048.rank)
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  bcast_S4096x8_S4096x8x1024_0_1 : S4096x8.BroadcastsInDim S4096x8x1024 (![0, 1] : Fin 2 → Fin S4096x8x1024.rank)
  shapeCasts_S4096x8x1024_S4096x8192 : S4096x8x1024.ShapeCasts S4096x8192
  dot_S4096x2048_S8192x2048_S4096x8192_1_1_0_0_n_n_wf : DotDims.WF S4096x2048 S8192x2048 S4096x8192 [1] [1] [0] [0] [] []

variable [Facts₀]

def dot_S4096x2048_S8192x2048_S4096x8192_1_1_0_0_n_n : DotDims S4096x2048 S8192x2048 S4096x8192 where
  lhsContracting := [1]
  rhsContracting := [1]
  lhsNonContracting := [0]
  rhsNonContracting := [0]
  lhsBatch := []
  rhsBatch := []
  wf := dot_S4096x2048_S8192x2048_S4096x8192_1_1_0_0_n_n_wf

class Facts : Prop extends Facts₀ where

variable [Facts]
-- ==== Proof.TileWord.lean ====
/-
  Which tile a column lies in, computed on 32-bit words.

  The 8192 output columns fall into 8 tiles of 1024 consecutive columns; column `o` lies in tile `o / 1024`. On the
  host that quotient is computed on two's-complement words as a FLOORED quotient by 1024: the quotient rounded toward
  zero, lowered by one when the signs of dividend and divisor differ and the remainder is not zero. For a column number
  below 8192 both are non-negative, no correction applies, and the word is the number `o / 1024` (`tileWord_eq`;
  the column is written in the digits `q * 1024 + a * 32 + b` and the equation decided digit by digit). Comparing the
  word of a tile number `t < 8` with it is comparing the numbers (`hot_word`), and the comparison bit read as a float
  is one on the column's own tile and zero on the seven others (`hot_entry`): row `t` of that 8 × 8192 table is
  the indicator of tile `t`.
-/
import Idealize.ShloMosaic.PureOps.Vector
import Idealize.ShloMosaic.PureOps.Ideal

noncomputable section

namespace Cert.TileGate

open Idealize.ShloMosaic

/-- The tile of 1024 consecutive columns that column `o` lies in. -/
def tileOf (o : Fin 8192) : Fin 8 := ⟨o.val / 1024, by have := o.isLt; omega⟩

/-- The floored quotient of a word by 1024, operation by operation: truncated quotient `q`, the signs of the word and of
    1024, the remainder `r`; `q - 1` when the signs differ and `r ≠ 0`, else `q`. -/
def tileWord (x : BitVec 32) : BitVec 32 :=
  let d : BitVec 32 := 1024#32
  let q := IntOp.divsi .host x d
  let sx : BitVec 32 := if x = 0 then 0 else if x.msb then -1 else 1
  let sd : BitVec 32 := if d = 0 then 0 else if d.msb then -1 else 1
  let r := IntOp.remsi .host x d
  Scalar.select (IntOp.andi (IntOp.cmpi .ne sx sd) (IntOp.cmpi .ne r 0#32)) (IntOp.subi q 1#32) q

/-- Digit by digit: the floored quotient of `q * 1024 + a * 32 + b` by 1024 is `q`. -/
theorem tileWord_digits : ∀ (q : Fin 8) (a b : Fin 32),
    tileWord (BitVec.ofNat 32 (q.val * 1024 + a.val * 32 + b.val)) = BitVec.ofNat 32 q.val := by decide +kernel

/-- The floored quotient by 1024 of a column number's word is the word of the column's tile. -/
theorem tileWord_eq (o : Fin 8192) : tileWord (BitVec.ofNat 32 o.val) = BitVec.ofNat 32 (tileOf o).val := by
  have ho := o.isLt
  have h := tileWord_digits ⟨o.val / 1024, by omega⟩ ⟨o.val % 1024 / 32, by omega⟩ ⟨o.val % 32, by omega⟩
  have e : o.val / 1024 * 1024 + o.val % 1024 / 32 * 32 + o.val % 32 = o.val := by omega
  simp only [e] at h
  exact h

/-- Two tile numbers' words are equal exactly when the numbers are. -/
theorem hot_word : ∀ t q : Fin 8,
    IntOp.cmpi .eq (BitVec.ofNat 32 t.val) (BitVec.ofNat 32 q.val) = if t = q then 1#1 else 0#1 := by decide +kernel

/-- Entry `(t, o)` of the tile table over the extended reals: one when column `o` lies in tile `t`, else zero. -/
theorem hot_entry (t : Fin 8) (o : Fin 8192) :
    FloatOps.uitofp (F := Ideal) .f32 (IntOp.cmpi .eq (BitVec.ofNat 32 t.val) (tileWord (BitVec.ofNat 32 o.val)))
      = if t = tileOf o then (1 : EReal) else 0 := by
  rw [tileWord_eq, hot_word]
  by_cases h : t = tileOf o
  · rw [if_pos h, if_pos h]
    show (((1#1 : BitVec 1).toNat : ℝ) : EReal) = 1
    norm_num
  · rw [if_neg h, if_neg h]
    show (((0#1 : BitVec 1).toNat : ℝ) : EReal) = 0
    norm_num

end Cert.TileGate

end
-- ==== Proof.HostPrelude.lean ====
/-
  What the host prepares before the kernel runs.

  Four of the five arrays the kernel reads are written by host operations first: the batch `x` (only its float format
  changes, which leaves the extended reals as they are); the TERNARY TABLE of the weights, `1` where a weight exceeds
  `1/2`, `-1` where it is below `-1/2`, `0` elsewhere (`ternTable`, kept as the program's own composition of compares
  and selects and never opened: the reference forms the same table); the scale vector laid out as one row of 8192; and the
  8 × 8192 TILE TABLE `E(t, o) = [o / 1024 = t]`, computed on integer words as a comparison of a column of tile numbers
  with the floored quotients of the column numbers by 1024, then converted to floats (`tileTable`; read at an index in
  `tileTable_apply`, with the word arithmetic done once in the module on tile words). The gate is read as launched.
-/
import proofs.«116655_j51934744543485_2_alg».proof.Proof.Gen.KernelIdeal.Frame
import proofs.«116655_j51934744543485_2_alg».proof.Proof.TileWord
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Prelude

open Cert.KernelIdeal Cert.KernelIdeal.Gen Idealize.ShloMosaic Idealize.ShloMosaic.TcCoe Idealize.SL.Sem
open Idealize.ShloMosaic.StableHlo Idealize.ShloMosaic.ValueIdx Cert.TileGate

/-- The ternary table of a weight array: `1` above `1/2`, `-1` below `-1/2`, `0` between. -/
def ternTable (w : FVec Ideal S8192x2048 .f32) : FVec Ideal S8192x2048 .f32 :=
  select (cmpf .ogt w (broadcastInDim S8192x2048 ![] bcast_S_S8192x2048 (constant (F := Ideal) S_ .f32 0x3F000000#32)))
    (broadcastInDim S8192x2048 ![] bcast_S_S8192x2048 (constant (F := Ideal) S_ .f32 0x3F800000#32))
    (select (cmpf .olt w (broadcastInDim S8192x2048 ![] bcast_S_S8192x2048 (constant (F := Ideal) S_ .f32 0xBF000000#32)))
      (broadcastInDim S8192x2048 ![] bcast_S_S8192x2048 (constant (F := Ideal) S_ .f32 0xBF800000#32))
      (broadcastInDim S8192x2048 ![] bcast_S_S8192x2048 (constant (F := Ideal) S_ .f32 0x00000000#32)))

/-- The floored quotients by 1024 of the column numbers `0 … 8191`, as words. -/
def tileQuot : IVec S8192 32 :=
  let cols : IVec S8192 32 := iotaInDim S8192 32 0
  let d : IVec S_ 32 := id (constantI S_ 32 1024#32)
  let q : IVec S8192 32 := Host.divsi cols (broadcastInDim S8192 ![] bcast_S_S8192 d)
  let differ : IVec S8192 1 := cmpi .ne (signi cols) (broadcastInDim S8192 ![] bcast_S_S8192 (signi d))
  let r : IVec S8192 32 := Host.remsi cols (broadcastInDim S8192 ![] bcast_S_S8192 d)
  let inexact : IVec S8192 1 := cmpi .ne r (broadcastInDim S8192 ![] bcast_S_S8192 (constantI S_ 32 0#32))
  select (andi differ inexact) (subi q (broadcastInDim S8192 ![] bcast_S_S8192 (constantI S_ 32 1#32))) q

/-- The tile table: a column of the tile numbers `0 … 7` compared with the row of the columns' floored quotients. -/
def tileTable : FVec Ideal S8x8192 .f32 :=
  uitofp .f32 (cmpi .eq
    (broadcastInDim S8x8192 ![0, 1] bcast_S8x1_S8x8192_0_1 (shapeCast S8x1 (iotaInDim S8 32 0) shapeCasts_S8_S8x1))
    (broadcastInDim S8x8192 ![0, 1] bcast_S1x8192_S8x8192_0_1 (shapeCast S1x8192 tileQuot shapeCasts_S8192_S1x8192)))

variable (m : (ℓ : Loc nD τ sig) → Buf (Elt Ideal) ℓ) (c : Dev nD)

/-- The region finds the batch as launched. -/
theorem found_x : (V m c main_v7 : S4096x2048.Idx → EReal) = (m ((c : Thread nD τ).loc main_arg0) : S4096x2048.Idx → EReal) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The region finds the ternary table of the launched weights. -/
theorem found_w : (V m c main_v6 : S8192x2048.Idx → EReal) = ternTable (m ((c : Thread nD τ).loc main_arg1)) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The region finds the launched scales laid out as one row. -/
theorem found_s : (V m c main_v8 : S1x8192.Idx → EReal)
    = shapeCast S1x8192 (m ((c : Thread nD τ).loc main_arg2) : S8192.Idx → EReal) shapeCasts_S8192_S1x8192 := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

set_option maxHeartbeats 4000000 in
/-- The region finds the tile table. -/
theorem found_e : (V m c main_v17 : S8x8192.Idx → EReal) = tileTable := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- Entry `(t, o)` of the tile table: one when column `o` lies in tile `t`, else zero. -/
theorem tileTable_apply (t : Fin 8) (o : Fin 8192) : tileTable (ix2 t o) = if t = tileOf o then (1 : EReal) else 0 := by
  have h1 : broadcastInDim S8x8192 ![0, 1] bcast_S8x1_S8x8192_0_1 (shapeCast S8x1 (iotaInDim S8 32 0) shapeCasts_S8_S8x1) (ix2 t o)
      = BitVec.ofNat 32 t.val := by
    rw [broadcastInDim_apply _ bcast_S8x1_S8x8192_0_1 _ (ix2 t o) (ix2 t (0 : Fin 1)) (fun a => by
      match a with
      | ⟨0, _⟩ => show t.val = if (8 : Nat) = 1 then 0 else t.val; rw [if_neg (by decide)]
      | ⟨1, _⟩ => show 0 = if (1 : Nat) = 1 then 0 else o.val; rw [if_pos rfl])]
    rw [shapeCast_apply _ shapeCasts_S8_S8x1 (ix2 t (0 : Fin 1)) (ix1 t) (by
      rw [Shape.rowMajor_val_one, Shape.rowMajor_val_two]; show t.val = t.val * 1 + 0; omega)]
    rfl
  have h2 : broadcastInDim S8x8192 ![0, 1] bcast_S1x8192_S8x8192_0_1 (shapeCast S1x8192 tileQuot shapeCasts_S8192_S1x8192) (ix2 t o)
      = tileWord (BitVec.ofNat 32 o.val) := by
    rw [broadcastInDim_apply _ bcast_S1x8192_S8x8192_0_1 _ (ix2 t o) (ix2 (0 : Fin 1) o) (fun a => by
      match a with
      | ⟨0, _⟩ => show 0 = if (1 : Nat) = 1 then 0 else t.val; rw [if_pos rfl]
      | ⟨1, _⟩ => show o.val = if (8192 : Nat) = 1 then 0 else o.val; rw [if_neg (by decide)])]
    rw [shapeCast_apply _ shapeCasts_S8192_S1x8192 (ix2 (0 : Fin 1) o) (ix1 o) (by
      rw [Shape.rowMajor_val_one, Shape.rowMajor_val_two]; show o.val = 0 * 8192 + o.val; omega)]
    rfl
  show FloatOps.uitofp (F := Ideal) .f32 (IntOp.cmpi .eq
    (broadcastInDim S8x8192 ![0, 1] bcast_S8x1_S8x8192_0_1 (shapeCast S8x1 (iotaInDim S8 32 0) shapeCasts_S8_S8x1) (ix2 t o))
    (broadcastInDim S8x8192 ![0, 1] bcast_S1x8192_S8x8192_0_1 (shapeCast S1x8192 tileQuot shapeCasts_S8192_S1x8192) (ix2 t o))) = _
  rw [h1, h2]
  exact hot_entry t o

/-- The scale row at column `o` is the scale vector's entry `o`. -/
theorem scaleRow_apply (s : S8192.Idx → EReal) (o : Fin 8192) :
    shapeCast S1x8192 s shapeCasts_S8192_S1x8192 (ix2 (0 : Fin 1) o) = s (ix1 o) :=
  shapeCast_apply s shapeCasts_S8192_S1x8192 (ix2 (0 : Fin 1) o) (ix1 o) (by
    rw [Shape.rowMajor_val_one, Shape.rowMajor_val_two]; show o.val = 0 * 8192 + o.val; omega)

end Cert.KernelIdeal.Prelude

end
-- ==== Proof.LibRowsTimesRows.lean ====
/-
  A product of an `R × n` matrix with the rows of a `k × n` matrix, read at an index, over the extended reals.

  When both operands are contracted on their SECOND axis (no batch axis) — the product `A · Bᵀ` taken without
  materialising the transpose — a product accumulated into the zero matrix is, at row `q` and column `o`, the sum
  over `c : Fin n` of `A (q, c) * B (o, c)`: the zero accumulator contributes `0 + _`, and the contraction index, a
  one-axis multi-index, is re-indexed by its one coordinate. The statement quantifies over the well-formedness proof
  only, so it applies to any record with these six lists. Nothing here needs an entry to be finite.
-/
import Idealize.ShloMosaic.PureOps.Ideal
import Idealize.ShloMosaic.PureOps.Ideal.Laws
import Idealize.ShloMosaic.Lib.ValueIdx

noncomputable section

namespace Cert.RowsTimesRows

open Idealize.ShloMosaic Idealize.ShloMosaic.ValueIdx

/-- The dimension numbers of `A · Bᵀ` for `A : R × n` and `B : k × n`, for any proof that they are well formed. -/
abbrev rowsDims (R n k : Nat)
    (wf : DotDims.WF (⟨2, ![R, n]⟩ : Shape) ⟨2, ![k, n]⟩ ⟨2, ![R, k]⟩ [1] [1] [0] [0] [] []) :
    DotDims (⟨2, ![R, n]⟩ : Shape) ⟨2, ![k, n]⟩ ⟨2, ![R, k]⟩ :=
  { lhsContracting := [1], rhsContracting := [1], lhsNonContracting := [0], rhsNonContracting := [0],
    lhsBatch := [], rhsBatch := [], wf := wf }

theorem rowsDims_contr_rank {R n k : Nat} (wf) : (rowsDims R n k wf).contr.rank = 1 := rfl

theorem rowsDims_contr_size {R n k : Nat} (wf) :
    (rowsDims R n k wf).contr.size ⟨0, by rw [rowsDims_contr_rank]; exact Nat.one_pos⟩ = n := rfl

/-- The contraction index of such a product is one coordinate in `Fin n`. -/
abbrev rowsContr {R n k : Nat} (wf) : (rowsDims R n k wf).contr.Idx ≃ Fin n :=
  contrEquiv1 (rowsDims R n k wf) n (rowsDims_contr_rank wf) (rowsDims_contr_size wf)

/-- The left operand's index at output `(q, o)` and contraction coordinate `c` is `(q, c)`. -/
theorem rowsDims_lhsIdx {R n k : Nat} (wf) (q : Fin R) (o : Fin k) (c : Fin n) :
    (rowsDims R n k wf).lhsIdx (ix2 q o) ((rowsContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (rowsDims R n k wf).lhsBatch from List.not_mem_nil),
      dif_pos (show (⟨0, h0⟩ : Fin (⟨2, ![R, n]⟩ : Shape).rank) ∈ (rowsDims R n k wf).lhsNonContracting from
        List.mem_singleton.mpr rfl)]
    rfl
  | ⟨1, h1⟩ =>
    exact ((rowsDims R n k wf).lhsIdx_val_of_single (cl := ⟨1, h1⟩) rfl _ _).trans
      (contrEquiv1_symm_val (rowsDims R n k wf) n (rowsDims_contr_rank wf) (rowsDims_contr_size wf) c)

/-- The right operand's index there is `(o, c)`: its first axis is the output's second. -/
theorem rowsDims_rhsIdx {R n k : Nat} (wf) (q : Fin R) (o : Fin k) (c : Fin n) :
    (rowsDims R n k wf).rhsIdx (ix2 q o) ((rowsContr wf).symm c) = ix2 o c := by
  funext a
  apply Fin.ext
  match a with
  | ⟨0, h0⟩ =>
    unfold DotDims.rhsIdx
    rw [dif_neg (show ¬(⟨0, h0⟩ : Fin (⟨2, ![k, n]⟩ : Shape).rank) ∈ (rowsDims R n k wf).rhsBatch from List.not_mem_nil),
      dif_pos (show (⟨0, h0⟩ : Fin (⟨2, ![k, n]⟩ : Shape).rank) ∈ (rowsDims R n k wf).rhsNonContracting from
        List.mem_singleton.mpr rfl)]
    rfl
  | ⟨1, h1⟩ =>
    exact ((rowsDims R n k wf).rhsIdx_val_of_single (cr := ⟨1, h1⟩) rfl _ _).trans
      (contrEquiv1_symm_val (rowsDims R n k wf) n (rowsDims_contr_rank wf) (rowsDims_contr_size wf) c)

/-- A product `A · Bᵀ` accumulated into the zero matrix, at `(q, o)`: the sum over the shared second axis. -/
theorem rowsMatmul_zero_apply {R n k : Nat} {φ₁ φ₂ : FTy} (wf) (prec : Option ContractPrecision)
    (A : FVec Ideal (⟨2, ![R, n]⟩ : Shape) φ₁) (B : FVec Ideal (⟨2, ![k, n]⟩ : Shape) φ₂) (q : Fin R) (o : Fin k) :
    FloatOps.matmul (rowsDims R n k wf) prec A B (constant (F := Ideal) (⟨2, ![R, k]⟩ : Shape) .f32 0x00000000#32) (ix2 q o)
      = ∑ c : Fin n, A (ix2 q c) * B (ix2 o c) := by
  rw [Ideal.matmul_constant_zero_apply, ← Equiv.sum_comp (rowsContr wf).symm]
  refine Finset.sum_congr rfl fun c _ => ?_
  rw [rowsDims_lhsIdx, rowsDims_rhsIdx]

end Cert.RowsTimesRows

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibRowLayout.lean ====
/-
  A vector laid out as a one-row matrix, two ways, and a one-row matrix copied down the rows.

  A bias vector of n entries meets an R×n table as a one-row matrix copied down the R rows. A kernel gets the row by a
  reshape of the vector to 1×n on the host and copies it with `vector.broadcast`; jnp gets it by a broadcast of the vector
  into dimension 1 of a 1×n matrix and a second broadcast down the rows. The two one-row matrices are the same matrix
  (`rowLayout`: entry (0, k) of either is entry k of the vector), and the kernel's copy, read at (r, k), is the row at
  (0, k) (`rowBroadcast_apply`). Stated for any entry type and any sizes; n = 1 is a bias cell met with a column.
-/
import Idealize.ShloMosaic.Lib.Pipeline.Value
import Idealize.ShloMosaic.Lib.ValueIdx

noncomputable section

namespace Idealize.ShloMosaic.RowLayout

open Idealize.ShloMosaic Idealize.ShloMosaic.ValueIdx

/-- A one-row matrix copied down R rows (a kernel's `vector.broadcast` of 1×n to R×n), read at (r, k), is the row at (0, k). -/
theorem rowBroadcast_apply {α : Type} {R n : ℕ} (x : (⟨2, ![1, n]⟩ : Shape).Idx → α)
    (h : (⟨2, ![1, n]⟩ : Shape).Broadcasts ⟨2, ![R, n]⟩) (r : Fin R) (k : Fin n) :
    broadcastTo ⟨2, ![R, n]⟩ x h (ix2 r k) = x (ix2 (0 : Fin 1) k) := by
  refine broadcastTo_apply x h (ix2 r k) (ix2 (0 : Fin 1) k) fun a => ?_
  match a with
  | ⟨0, _⟩ => rfl
  | ⟨1, _⟩ =>
    show k.val = if n = 1 then 0 else k.val
    split_ifs with hn
    · have := k.isLt; omega
    · rfl

/-- A vector of n entries broadcast into dimension 1 of a 1×n matrix, read at (z, k), is the vector at k. -/
theorem rowOfVector_apply {α : Type} {n : ℕ} (b : (⟨1, ![n]⟩ : Shape).Idx → α)
    (h : (⟨1, ![n]⟩ : Shape).BroadcastsInDim ⟨2, ![1, n]⟩ ![1]) (z : Fin 1) (k : Fin n) :
    broadcastInDim ⟨2, ![1, n]⟩ ![1] h b (ix2 z k) = b (ix1 k) := by
  refine broadcastInDim_apply ![1] h b (ix2 z k) (ix1 k) fun a => ?_
  match a with
  | ⟨0, _⟩ =>
    show k.val = if n = 1 then 0 else k.val
    split_ifs with hn
    · have := k.isLt; omega
    · rfl

/-- A vector of n entries reshaped to 1×n is the vector broadcast into dimension 1 of a 1×n matrix. -/
theorem rowLayout {α : Type} {n : ℕ} (b : (⟨1, ![n]⟩ : Shape).Idx → α) (h : (⟨1, ![n]⟩ : Shape).ShapeCasts ⟨2, ![1, n]⟩)
    (h' : (⟨1, ![n]⟩ : Shape).BroadcastsInDim ⟨2, ![1, n]⟩ ![1]) :
    shapeCast ⟨2, ![1, n]⟩ b h = broadcastInDim ⟨2, ![1, n]⟩ ![1] h' b := by
  funext j
  obtain ⟨z, k, rfl⟩ : ∃ (z : Fin 1) (k : Fin n), j = ix2 z k := ⟨j 0, j 1, eq_ix2 j⟩
  rw [rowOfVector_apply b h' z k]
  refine (shapeCast_addUnit_apply ![n] b h (ix2 z k)).trans (congrArg b (funext fun a => ?_))
  match a with
  | ⟨0, _⟩ => rfl

end Idealize.ShloMosaic.RowLayout

end
-- ==== Proof.GatedProduct.lean ====
/-
  A linear map whose output columns are switched on and off tile by tile: the result as ONE function of its arguments.

  For a batch `x` of 4096 rows of 2048 features, a weight table `W` of 8192 rows (one per output column) of 2048 entries, a
  scale `s` per output column and an integer gate `g` per batch row and tile, the entry at batch row `b` and column `o`
  is `((∑ₖ x(b,k) · W(o,k)) · s(o)) · g(b, o / 1024)`, the gate read as the integer it is. The sums and products are the
  extended reals'. One way to obtain the factor `g(b, o / 1024)` is to contract row `b` of the gate with column `o` of
  the 8 × 8192 table of tile indicators: seven of the eight terms are a product with zero (zero, whatever the other
  factor) and the eighth a product with one (`onehot_sum`); no entry needs to be finite for that.
-/
import Idealize.ShloMosaic.PureOps.Ideal
import Idealize.ShloMosaic.Lib.ValueIdx
import proofs.«116655_j51934744543485_2_alg».proof.Proof.TileWord

noncomputable section

namespace Cert.TileGate

open Idealize.ShloMosaic Idealize.ShloMosaic.ValueIdx

/-- Entry `(b, o)` of the gated product. -/
def gatedAt (x : FVec Ideal (⟨2, ![4096, 2048]⟩ : Shape) .f32) (W : FVec Ideal (⟨2, ![8192, 2048]⟩ : Shape) .f32)
    (s : FVec Ideal (⟨1, ![8192]⟩ : Shape) .f32) (g : IVec (⟨2, ![4096, 8]⟩ : Shape) 32) (b : Fin 4096) (o : Fin 8192) : EReal :=
  ((∑ k : Fin 2048, x (ix2 b k) * W (ix2 o k)) * s (ix1 o)) * FloatOps.sitofp (F := Ideal) .f32 (g (ix2 b (tileOf o)))

/-- The gated product as an array of 4096 × 8192 extended reals. -/
def gated (x : FVec Ideal (⟨2, ![4096, 2048]⟩ : Shape) .f32) (W : FVec Ideal (⟨2, ![8192, 2048]⟩ : Shape) .f32)
    (s : FVec Ideal (⟨1, ![8192]⟩ : Shape) .f32) (g : IVec (⟨2, ![4096, 8]⟩ : Shape) 32) :
    FVec Ideal (⟨2, ![4096, 8192]⟩ : Shape) .f32 :=
  fun i => gatedAt x W s g (i 0) (i 1)

theorem gated_apply (x W s g) (b : Fin 4096) (o : Fin 8192) : gated x W s g (ix2 b o) = gatedAt x W s g b o := rfl

/-- Contracting a row of eight extended reals with the indicator of one position picks that position's entry. -/
theorem onehot_sum (a : Fin 8 → EReal) (q : Fin 8) :
    ∑ t : Fin 8, a t * (if t = q then (1 : EReal) else 0) = a q := by
  simp only [mul_ite, mul_one, mul_zero, Finset.sum_ite_eq', Finset.mem_univ, if_true]

end Cert.TileGate

end
-- ==== Proof.BodyForm.lean ====
/-
  One block of the kernel's result, entry by entry.

  At a grid point the body holds 1024 rows of `x`, 512 rows of the weight table, the 512 matching scales as one row, the
  1024 × 8 block of the gate and the 8 × 512 block of the tile table. Entry `(p, q)` of what it stores is
  `((∑ₖ x(p,k) · W(q,k)) · s(0,q)) · (∑ₜ g(p,t) · E(t,q))`: the first product contracts both operands' second axes into a
  zero accumulator, the scale row is copied down the 1024 rows, the gate is converted from integers, and the second
  product is an ordinary matrix product into a zero accumulator. Casts of a block to its own shape and changes of float
  format do nothing to the values.
-/
import proofs.«116655_j51934744543485_2_alg».proof.Proof.Gen.KernelIdeal.Skeleton
import proofs.«116655_j51934744543485_2_alg».proof.Proof.LibRowsTimesRows
import proofs.«116655_j51934744543485_2_alg».proof.Proof.LibPlainMatmul
import proofs.«116655_j51934744543485_2_alg».proof.Proof.LibRowLayout
import proofs.«116655_j51934744543485_2_alg».proof.Proof.GatedProduct
import Idealize.ShloMosaic.Lib.Pipeline.Value
import Idealize.ShloMosaic.Lib.ValueIdx

noncomputable section

namespace Cert.KernelIdeal.BodyForm

open Cert.KernelIdeal Cert.KernelIdeal.Gen Idealize.ShloMosaic Idealize.ShloMosaic.ValueIdx Cert.TileGate

/-- The stored block at `(p, q)`, from the five loaded blocks. -/
theorem body_at (x0 : Vec Ideal S1024x2048 .bf16) (x1 : Vec Ideal S512x2048 .bf16) (x2 : Vec Ideal S1x512 .f32)
    (x3 : Vec Ideal S1024x8 .i32) (x4 : Vec Ideal S8x512 .f32) (p : Fin 1024) (q : Fin 512) :
    k0_pay1 (F := Ideal) x0 x1 x2 x3 x4 (ix2 p q)
      = ((∑ k : Fin 2048, x0 (ix2 p k) * x1 (ix2 q k)) * x2 (ix2 (0 : Fin 1) q))
          * (∑ t : Fin 8, FloatOps.sitofp (F := Ideal) .f32 (x3 (ix2 p t)) * x4 (ix2 t q)) := by
  have hA : dot_S1024x2048_S512x2048_S1024x512_1_1_0_0_n_n
      = Cert.RowsTimesRows.rowsDims 1024 2048 512 Facts₀.dot_S1024x2048_S512x2048_S1024x512_1_1_0_0_n_n_wf := rfl
  have hB : dot_S1024x8_S8x512_S1024x512_1_0_0_1_n_n
      = Cert.PointConv.plainDims 1024 8 512 Facts₀.dot_S1024x8_S8x512_S1024x512_1_0_0_1_n_n_wf := rfl
  unfold k0_pay1
  dsimp only [matmul]
  rw [mulf_apply, mulf_apply, shapeCast_self, shapeCast_self, shapeCast_self, shapeCast_self, hA, hB,
    Cert.RowsTimesRows.rowsMatmul_zero_apply, Cert.PointConv.plainMatmul_zero_apply, RowLayout.rowBroadcast_apply]
  rfl

/-- When the five blocks are the rows `b` of `X` and of the gate `G`, the rows `o` of `W`, the scale of column `o` and
    the columns `o` of the tile indicators, the stored entry is the gated product at `(b, o)`: the contraction of the gate
    row with the indicator column picks the gate of column `o`'s tile. -/
theorem entry_eq (X : FVec Ideal (⟨2, ![4096, 2048]⟩ : Shape) .f32) (W : FVec Ideal (⟨2, ![8192, 2048]⟩ : Shape) .f32)
    (S : FVec Ideal (⟨1, ![8192]⟩ : Shape) .f32) (G : IVec (⟨2, ![4096, 8]⟩ : Shape) 32) (b : Fin 4096) (o : Fin 8192)
    (x0 : Vec Ideal S1024x2048 .bf16) (x1 : Vec Ideal S512x2048 .bf16) (x2 : Vec Ideal S1x512 .f32)
    (x3 : Vec Ideal S1024x8 .i32) (x4 : Vec Ideal S8x512 .f32) (p : Fin 1024) (q : Fin 512)
    (h0 : ∀ k : Fin 2048, x0 (ix2 p k) = X (ix2 b k)) (h1 : ∀ k : Fin 2048, x1 (ix2 q k) = W (ix2 o k))
    (h2 : x2 (ix2 (0 : Fin 1) q) = S (ix1 o)) (h3 : ∀ t : Fin 8, x3 (ix2 p t) = G (ix2 b t))
    (h4 : ∀ t : Fin 8, x4 (ix2 t q) = if t = tileOf o then (1 : EReal) else 0) :
    k0_pay1 (F := Ideal) x0 x1 x2 x3 x4 (ix2 p q) = gatedAt X W S G b o := by
  rw [body_at]
  simp only [h0, h1, h2, h3, h4]
  rw [onehot_sum (fun t => FloatOps.sitofp (F := Ideal) .f32 (G (ix2 b t))) (tileOf o)]
  rfl

end Cert.KernelIdeal.BodyForm

end
-- ==== Proof.BlockCover.lean ====
/-
  From the 64 blocks to the whole result.

  The 4096 × 8192 result is written in 4 × 16 blocks of 1024 rows by 512 columns; at the grid point of block `(I, J)` the
  body reads rows `1024·I …` of the batch and of the gate, rows `512·J …` of the ternary table, and columns `512·J …` of the
  scale row and of the tile table. So entry `(p, q)` of what that point writes back is the gated product at row
  `1024·I + p` and column `512·J + q` (`flushed_eq`: each loaded block read where the whole array has it, then the entry
  law of the body). Every index of the result lies in the block of the point `(row / 1024, column / 512)` (`cover`), so the
  array ends holding the gated product everywhere (`final`), and the kernel's run ends there with its arguments as
  launched (`run`).
-/
import proofs.«116655_j51934744543485_2_alg».proof.Proof.Gen.KernelIdeal.Value
import proofs.«116655_j51934744543485_2_alg».proof.Proof.HostPrelude
import proofs.«116655_j51934744543485_2_alg».proof.Proof.BodyForm
import proofs.«116655_j51934744543485_2_alg».proof.Proof.GatedProduct
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.TileGate Cert.KernelIdeal.Prelude Cert.KernelIdeal.BodyForm

variable (m : (ℓ : Loc nD τ sig) → Buf (Elt Ideal) ℓ) (ρ : Dev nD → PrngReg)

theorem zeroOff : (![0, 0] : Fin 2 → Nat) = fun _ => 0 := funext fun a => by fin_cases a <;> rfl

/-- The whole result: the gated product of the launched batch, the ternary table of the launched weights, the launched
    scales and the launched gate. -/
def whole (c : Dev nD) : S4096x8192.Idx → EReal :=
  gated (m ((c : Thread nD τ).loc main_arg0)) (ternTable (m ((c : Thread nD τ).loc main_arg1)))
    (m ((c : Thread nD τ).loc main_arg2)) (m ((c : Thread nD τ).loc main_arg3))

/-- The block indices, decided over the 64 grid points: each input block moves with the output block's row index `I` or
    column index `J`, or stays at 0. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = 0 ∧ win0_2.index t (1 : Fin 2) = win0_5.index t (1 : Fin 2)
    ∧ win0_3.index t (0 : Fin 2) = win0_5.index t (0 : Fin 2) ∧ win0_3.index t (1 : Fin 2) = 0
    ∧ win0_4.index t (0 : Fin 2) = 0 ∧ win0_4.index t (1 : Fin 2) = win0_5.index t (1 : Fin 2) :=
  (by decide +kernel : ∀ t : Fin grid0.N, _)

/-- Every block `(I, J)` of the 4 × 16 is some grid point's. -/
theorem idx_onto : ∀ (q0 : Fin 4) (q1 : Fin 16), ∃ t : Fin cfg0.N, win0_5.index t = ![q0.val, q1.val] :=
  (by decide +kernel : ∀ (q0 : Fin 4) (q1 : Fin 16), ∃ t : Fin grid0.N, win0_5.index t = ![q0.val, q1.val])

set_option maxHeartbeats 2000000 in
/-- What grid point `t` writes back is block `t` of the gated product. -/
theorem flushed_eq (c : Dev nD) (t : Fin cfg0.N) :
    (dats m 0 c).flushed 5 t = ((cfg0.win 5).blk t).view.read (Elt Ideal) (whole m c) := by
  rw [Value.flushed5]
  unfold out0_5
  rw [View.canon_unit_zero zeroOff]
  simp only [View.ld_unit_zero (S := S1024x2048) zeroOff, View.ld_unit_zero (S := S512x2048) zeroOff,
    View.ld_unit_zero (S := S1x512) zeroOff, View.ld_unit_zero (S := S1024x8) zeroOff, View.ld_unit_zero (S := S8x512) zeroOff]
  obtain ⟨e00, e01, e10, e11, e20, e21, e30, e31, e40, e41⟩ := idx_facts t
  funext j
  obtain ⟨p, q, rfl⟩ : ∃ (p : Fin 1024) (q : Fin 512), j = ix2 p q := ⟨j 0, j 1, eq_ix2 j⟩
  have hp := p.isLt
  have hq := q.isLt
  show k0_pay1 (F := Ideal) (iblk m c 0 t) (iblk m c 1 t) (iblk m c 2 t) (iblk m c 3 t) (iblk m c 4 t) (ix2 p q)
      = gatedAt (m ((c : Thread nD τ).loc main_arg0)) (ternTable (m ((c : Thread nD τ).loc main_arg1)))
          (m ((c : Thread nD τ).loc main_arg2)) (m ((c : Thread nD τ).loc main_arg3))
          ((((cfg0.win 5).blk t).view.emb (ix2 p q)) 0) ((((cfg0.win 5).blk t).view.emb (ix2 p q)) 1)
  refine entry_eq _ _ _ _ _ _ (iblk m c 0 t) (iblk m c 1 t) (iblk m c 2 t) (iblk m c 3 t) (iblk m c 4 t) p q ?_ ?_ ?_ ?_ ?_
  · intro k
    show V m c main_v7 (((cfg0.win 0).blk t).view.emb (ix2 p k)) = _
    refine (congrFun (found_x m c) _).trans (congrArg _ (funext fun a => Fin.ext ?_))
    match a with
    | ⟨0, _⟩ => show win0_0.index t (0 : Fin 2) * 1024 + 1 * p.val = win0_5.index t (0 : Fin 2) * 1024 + 1 * p.val; omega
    | ⟨1, _⟩ => show win0_0.index t (1 : Fin 2) * 2048 + 1 * k.val = k.val; omega
  · intro k
    show V m c main_v6 (((cfg0.win 1).blk t).view.emb (ix2 q k)) = _
    refine (congrFun (found_w m c) _).trans (congrArg _ (funext fun a => Fin.ext ?_))
    match a with
    | ⟨0, _⟩ => show win0_1.index t (0 : Fin 2) * 512 + 1 * q.val = win0_5.index t (1 : Fin 2) * 512 + 1 * q.val; omega
    | ⟨1, _⟩ => show win0_1.index t (1 : Fin 2) * 2048 + 1 * k.val = k.val; omega
  · show V m c main_v8 (((cfg0.win 2).blk t).view.emb (ix2 (0 : Fin 1) q)) = _
    refine (congrFun (found_s m c) _).trans ?_
    refine Eq.trans (congrArg _ (funext fun a => Fin.ext ?_)) (scaleRow_apply _ ((((cfg0.win 5).blk t).view.emb (ix2 p q)) 1))
    match a with
    | ⟨0, _⟩ => show win0_2.index t (0 : Fin 2) * 1 + 1 * 0 = 0; omega
    | ⟨1, _⟩ => show win0_2.index t (1 : Fin 2) * 512 + 1 * q.val = win0_5.index t (1 : Fin 2) * 512 + 1 * q.val; omega
  · intro k
    show V m c main_arg3 (((cfg0.win 3).blk t).view.emb (ix2 p k)) = _
    refine (congrFun (V_main_arg3 m c) _).trans (congrArg _ (funext fun a => Fin.ext ?_))
    match a with
    | ⟨0, _⟩ => show win0_3.index t (0 : Fin 2) * 1024 + 1 * p.val = win0_5.index t (0 : Fin 2) * 1024 + 1 * p.val; omega
    | ⟨1, _⟩ => show win0_3.index t (1 : Fin 2) * 8 + 1 * k.val = k.val; omega
  · intro k
    show V m c main_v17 (((cfg0.win 4).blk t).view.emb (ix2 k q)) = _
    refine (congrFun (found_e m c) _).trans ?_
    refine Eq.trans (congrArg _ (funext fun a => Fin.ext ?_)) (tileTable_apply k ((((cfg0.win 5).blk t).view.emb (ix2 p q)) 1))
    match a with
    | ⟨0, _⟩ => show win0_4.index t (0 : Fin 2) * 8 + 1 * k.val = k.val; omega
    | ⟨1, _⟩ => show win0_4.index t (1 : Fin 2) * 512 + 1 * q.val = win0_5.index t (1 : Fin 2) * 512 + 1 * q.val; omega

/-- An index of the result is in point `t`'s block iff each coordinate is in the block's range on its axis. -/
theorem mem_blk (t : Fin cfg0.N) (i : S4096x8192.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v18).slice (win0_5.rect t)).set ↔ _
  rw [View.set_slice_whole, Rect.mem_set_unit]
  exact Iff.rfl

/-- Every index of the result is in the block of the point `(row / 1024, column / 512)`. -/
theorem cover (i : S4096x8192.Idx) :
    ∃ t : Fin cfg0.N, (cfg0.win 5).flush t = true ∧ i ∈ ((cfg0.win 5).blk t).view.set := by
  have hi0 : (i 0).val < 4096 := (i 0).isLt
  have hi1 : (i 1).val < 8192 := (i 1).isLt
  obtain ⟨t, ht⟩ := idx_onto ⟨(i 0).val / 1024, by omega⟩ ⟨(i 1).val / 512, by omega⟩
  have q0 : win0_5.index t (0 : Fin 2) = (i 0).val / 1024 := congrFun ht 0
  have q1 : win0_5.index t (1 : Fin 2) = (i 1).val / 512 := congrFun ht 1
  refine ⟨t, flush0_5 t, ?_⟩
  rw [mem_blk]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 512 ≤ (i 1).val ∧ (i 1).val < win0_5.index t (1 : Fin 2) * 512 + 512
    omega

/-- After the run the result array holds the gated product. -/
theorem final (c : Dev nD) : (dats m 0 c).arrAt 5 cfg0.N = whole m c :=
  (dats m 0 c).arrAt_eq_of_cover 5 (whole m c) (fun t _ => flushed_eq m c t) cover

/-- The kernel's run: every weakly fair execution ends with the result at the gated product and the arguments as launched. -/
theorem run : θ_run defs (onTc (τ := τ) (main (F := Ideal))) ⟨m, fun _ => 0, ρ⟩ fun r => ∀ c : Dev nD,
      r.2.mem ((c : Thread nD τ).loc main_v18) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.RefForm.lean ====
/-
  The reference computes the gated product.

  Read one operation at a time at batch row `b` and column `o`, the reference's result is
  `((∑ₖ x(b,k) · W(o,k)) · s(o)) · g(b, o / 1024)`: the contraction of `x` and the ternary weight table `W` over their
  second axes, the scale vector laid out as a row and copied down the batch, and the gate converted to floats, copied
  1024 times along a new last axis and flattened — so that column `o = t · 1024 + r` of the flattened array reads
  gate column `t = o / 1024`. The ternary table is kept as the reference's own stage `val_main_v6` of the raw weights
  and never opened.
-/
import proofs.«116655_j51934744543485_2_alg».proof.Proof.Gen.ReferenceIdeal.Read
import proofs.«116655_j51934744543485_2_alg».proof.Proof.GatedProduct

noncomputable section

namespace Cert.ReferenceIdeal.RefForm

open Cert.ReferenceIdeal Cert.ReferenceIdeal.Read Idealize.ShloMosaic Idealize.ShloMosaic.ValueIdx Cert.TileGate

/-- The reference's last stage is the gated product of `x`, the ternary table of the weights, the scales and the gate. -/
theorem ref_eq_gated (x0 : (⟨S4096x2048, .f32⟩ : BufTy).Contents (Elt Ideal)) (x1 : (⟨S8192x2048, .f32⟩ : BufTy).Contents (Elt Ideal))
    (x2 : (⟨S8192, .f32⟩ : BufTy).Contents (Elt Ideal)) (x3 : (⟨S4096x8, .i32⟩ : BufTy).Contents (Elt Ideal)) :
    val_main_v14 (F := Ideal) x0 x1 x2 x3 = gated x0 (val_main_v6 (F := Ideal) x1) x2 x3 := by
  funext i
  obtain ⟨b, o, rfl⟩ : ∃ (b : Fin 4096) (o : Fin 8192), i = ix2 b o := ⟨i 0, i 1, eq_ix2 i⟩
  have hb := b.isLt
  have ho := o.isLt
  have el : ∀ k : Fin 2048, lidx_main_v7 (ix2 b o) k = ix2 b k := fun k => funext fun a => Fin.ext (by
    match a with | ⟨0, _⟩ => rfl | ⟨1, _⟩ => rfl)
  have er : ∀ k : Fin 2048, ridx_main_v7 (ix2 b o) k = ix2 o k := fun k => funext fun a => Fin.ext (by
    match a with | ⟨0, _⟩ => rfl | ⟨1, _⟩ => rfl)
  have es : idx_main_v8 (idx_main_v9 (ix2 b o)) = ix1 o := funext fun a => Fin.ext (by
    match a with | ⟨0, _⟩ => rfl)
  have eg : idx_main_v12 (idx_main_v13 (ix2 b o)) = ix2 b (tileOf o) := funext fun a => Fin.ext (by
    match a with
    | ⟨0, _⟩ => show (b.val * 8192 + o.val) / 8192 = b.val; omega
    | ⟨1, _⟩ => show (b.val * 8192 + o.val) / 1024 % 8 = o.val / 1024; omega)
  rw [val_main_v14_apply, val_main_v10_apply, val_main_v7_apply, val_main_v9_apply, val_main_v8_apply, val_main_v13_apply,
    val_main_v12_apply, val_main_v11_apply, es, eg, gated_apply]
  simp only [el, er, Ideal.mulf_def]
  rfl

end Cert.ReferenceIdeal.RefForm

end
-- ==== Proof.lean ====
/-
  A tile-gated ternary linear layer, computed in blocks on the matrix unit, equals its plain formulation over the
  extended reals.

  Both programs map a batch `x` (4096 × 2048), weights `w` (8192 × 2048), a scale per output column and an integer gate
  per batch row and tile of 1024 columns to `y(b, o) = ((∑ₖ x(b,k) · T(o,k)) · s(o)) · g(b, o / 1024)`, where `T` is the
  ternary table of `w` (`1` above `1/2`, `-1` below `-1/2`, else `0`), formed by the same compares and selects in
  both. The reference contracts whole arrays and repeats each gate column 1024 times. The kernel works block by block
  (1024 rows × 512 columns per grid point) on operands whose float format was narrowed — no change to an extended real
  — and obtains the gate factor by contracting the gate's row with a column of the 8 × 8192 table of tile indicators,
  which the host computes from integer column numbers; that contraction has one non-zero term, the gate of the column's
  own tile. No step moves a factor across a sum, so no entry needs to be finite. The idealized kernel is the kernel's own
  text read over the extended reals (no operation was rewritten), the three programs run without fault and leave their
  arguments as launched, and the two idealized runs end with equal results.
-/
import proofs.«116655_j51934744543485_2_alg».proof.Defs
import proofs.«116655_j51934744543485_2_alg».proof.Proof.Gen.Kernel
import proofs.«116655_j51934744543485_2_alg».proof.Proof.Gen.Kernel.Skeleton
import proofs.«116655_j51934744543485_2_alg».proof.Proof.Gen.Kernel.Launch
import proofs.«116655_j51934744543485_2_alg».proof.Proof.Gen.Kernel.Points
import proofs.«116655_j51934744543485_2_alg».proof.Proof.Gen.Kernel.Frame
import proofs.«116655_j51934744543485_2_alg».proof.Proof.Gen.KernelIdeal
import proofs.«116655_j51934744543485_2_alg».proof.Proof.Gen.KernelIdeal.Skeleton
import proofs.«116655_j51934744543485_2_alg».proof.Proof.Gen.KernelIdeal.Launch
import proofs.«116655_j51934744543485_2_alg».proof.Proof.Gen.KernelIdeal.Points
import proofs.«116655_j51934744543485_2_alg».proof.Proof.Gen.KernelIdeal.Frame
import proofs.«116655_j51934744543485_2_alg».proof.Proof.Gen.ReferenceIdeal
import proofs.«116655_j51934744543485_2_alg».proof.Proof.Gen.Pre_finite_inputs
import proofs.«116655_j51934744543485_2_alg».proof.Proof.Gen.KernelIdeal.Value
import proofs.«116655_j51934744543485_2_alg».proof.Proof.Gen.ReferenceIdeal.Run
import proofs.«116655_j51934744543485_2_alg».proof.Proof.Gen.ReferenceIdeal.Read
import proofs.«116655_j51934744543485_2_alg».proof.Proof.BlockCover
import proofs.«116655_j51934744543485_2_alg».proof.Proof.RefForm
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at the gated product of the same arguments: the kernel's by its blocks covering the result, the
    reference's by reading its operations at an index; the two ternary tables are one composition of compares and selects. -/
theorem algebraic : Cert.algebraic_KernelIdeal_ReferenceIdeal := by
  intro m ρ m' ρ' _ hagree
  refine ⟨fun c => Cert.KernelIdeal.Blocks.whole m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefForm.ref_eq_gated,
    (hagree c).1, (hagree c).2.1, (hagree c).2.2.1, (hagree c).2.2.2]
  rfl

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
